-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S4096 : Shape := ⟨1, ![4096]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel

variable [Facts]

def fn {F : FTy → Type} [FloatOps F] (main_arg0 : FVec F S8x4096 .f32) (main_arg1 : IVec S4096 32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  main_v3
-- ==== Kernel.lean ====
abbrev S8x4096 : Shape := ⟨2, ![8, 4096]⟩
abbrev S4096 : Shape := ⟨1, ![4096]⟩
abbrev S8x4096x2048 : Shape := ⟨3, ![8, 4096, 2048]⟩
abbrev S8x512 : Shape := ⟨2, ![8, 512]⟩
abbrev S512 : Shape := ⟨1, ![512]⟩
abbrev S8x512x512 : Shape := ⟨3, ![8, 512, 512]⟩
abbrev S1x1x512 : Shape := ⟨3, ![1, 1, 512]⟩
abbrev S1x512x1 : Shape := ⟨3, ![1, 512, 1]⟩
abbrev S1x512x512 : Shape := ⟨3, ![1, 512, 512]⟩
abbrev S8x512x1 : Shape := ⟨3, ![8, 512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x4096, .f32⟩
  | .hbm, ⟨1, _⟩ => ⟨S4096, .i32⟩
  | .hbm, ⟨2, _⟩ => ⟨S8x4096x2048, .f32⟩
  | .local _ .vmem, ⟨0, _⟩ => ⟨S8x512, .f32⟩
  | .local _ .vmem, ⟨1, _⟩ => ⟨S8x512, .f32⟩
  | .local _ .vmem, ⟨2, _⟩ => ⟨S512, .i32⟩
  | .local _ .vmem, ⟨3, _⟩ => ⟨S512, .i32⟩
  | .local _ .vmem, ⟨4, _⟩ => ⟨S8x512x512, .f32⟩
  | .local _ .vmem, ⟨5, _⟩ => ⟨S8x512x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  iota_S1x1x512_d2_w32 : S1x1x512.Iotas .tc 32 [2]
  inb_S512_S512_0 : ∀ a, (![0] : Fin 1 → Nat) a + S512.size a ≤ S512.size a
  h_S512 : 0 < S512.numel
  shapeCasts_S512_S1x512x1 : S512.ShapeCasts S1x512x1
  broadcasts_S1x1x512_S1x512x512 : S1x1x512.Broadcasts S1x512x512
  broadcasts_S1x512x1_S1x512x512 : S1x512x1.Broadcasts S1x512x512
  natLt_1_32 : 1 < 32
  inb_S8x512_S8x512_0_0 : ∀ a, (![0, 0] : Fin 2 → Nat) a + S8x512.size a ≤ S8x512.size a
  h_S8x512 : 0 < S8x512.numel
  shapeCasts_S8x512_S8x512x1 : S8x512.ShapeCasts S8x512x1
  broadcasts_S1x512x512_S8x512x512 : S1x512x512.Broadcasts S8x512x512
  broadcasts_S8x512x1_S8x512x512 : S8x512x1.Broadcasts S8x512x512
  inb_S8x512x512_S8x512x512_0_0_0 : ∀ a, (![0, 0, 0] : Fin 3 → Nat) a + S8x512x512.size a ≤ S8x512x512.size a
  h_S8x512x512 : 0 < S8x512x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x4096.size a
  hwx0_0 : ∀ i : grid0.Coords, EltTy.bits .f32 = 32 ∨ (Rect.block (s := S8x4096) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S4096.size a
  hwx0_1 : ∀ i : grid0.Coords, EltTy.bits .i32 = 32 ∨ (Rect.block (s := S4096) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S8x4096x2048.size a
  hwx0_2 : ∀ i : grid0.Coords, EltTy.bits .f32 = 32 ∨ (Rect.block (s := S8x4096x2048) S8x512x512.size (cc0_transform_2 i) (hinb0_2 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096 : Shape := ⟨2, ![8, 4096]⟩
abbrev S4096 : Shape := ⟨1, ![4096]⟩
abbrev S1x4096 : Shape := ⟨2, ![1, 4096]⟩
abbrev S8x4096x1 : Shape := ⟨3, ![8, 4096, 1]⟩
abbrev S1x4096x1 : Shape := ⟨3, ![1, 4096, 1]⟩
abbrev S2048 : Shape := ⟨1, ![2048]⟩
abbrev S1x1x2048 : Shape := ⟨3, ![1, 1, 2048]⟩
abbrev S1x4096x2048 : Shape := ⟨3, ![1, 4096, 2048]⟩
abbrev S8x4096x2048 : Shape := ⟨3, ![8, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096, .i32⟩
  | .hbm, ⟨2, _⟩ => ⟨S1x4096, .i32⟩
  | .hbm, ⟨3, _⟩ => ⟨S8x4096x1, .f32⟩
  | .hbm, ⟨4, _⟩ => ⟨S1x4096x1, .i32⟩
  | .hbm, ⟨5, _⟩ => ⟨S2048, .i32⟩
  | .hbm, ⟨6, _⟩ => ⟨S1x1x2048, .i32⟩
  | .hbm, ⟨7, _⟩ => ⟨S1x4096x2048, .i32⟩
  | .hbm, ⟨8, _⟩ => ⟨S1x4096x2048, .i32⟩
  | .hbm, ⟨9, _⟩ => ⟨S1x4096x2048, .i1⟩
  | .hbm, ⟨10, _⟩ => ⟨S1x4096x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S8x4096_S8x4096x1_0_1 : S8x4096.BroadcastsInDim S8x4096x1 (![0, 1] : Fin 2 → Fin S8x4096x1.rank)
  bcast_S1x4096_S1x4096x1_0_1 : S1x4096.BroadcastsInDim S1x4096x1 (![0, 1] : Fin 2 → Fin S1x4096x1.rank)
  shapeCasts_S2048_S1x1x2048 : S2048.ShapeCasts S1x1x2048
  bcast_S1x1x2048_S1x4096x2048_0_1_2 : S1x1x2048.BroadcastsInDim S1x4096x2048 (![0, 1, 2] : Fin 3 → Fin S1x4096x2048.rank)
  bcast_S1x4096x1_S1x4096x2048_0_1_2 : S1x4096x1.BroadcastsInDim S1x4096x2048 (![0, 1, 2] : Fin 3 → Fin S1x4096x2048.rank)
  bcast_S1x4096x2048_S8x4096x2048_0_1_2 : S1x4096x2048.BroadcastsInDim S8x4096x2048 (![0, 1, 2] : Fin 3 → Fin S8x4096x2048.rank)
  bcast_S8x4096x1_S8x4096x2048_0_1_2 : S8x4096x1.BroadcastsInDim S8x4096x2048 (![0, 1, 2] : Fin 3 → Fin S8x4096x2048.rank)

variable [Facts₀]

class Facts : Prop extends Facts₀ where

variable [Facts]
-- ==== Proof.OneHot.lean ====
/-
  The array both programs compute: a gradient scattered one-hot along a new last axis.

  For a gradient `g` over rows `(b, n)` (8 × 4096) and one 32-bit index word `ind n` per column `n`, the result
  over `(b, n, d)` (8 × 4096 × 2048) holds `g b n` at the one position `d` of the new axis whose 32-bit word
  equals `ind n`, and zero at every other position: the product of the 0/1 indicator of "`d` is the index"
  with `g b n`. The indicator is the one-bit result of an integer comparison read as a number, so it is `0` or
  `1` exactly; the product is taken in the extended reals, indicator on the left, and no law of arithmetic is
  used on it: the two programs multiply the same two factors in the same order.

  Also here: the one integer fact that joins the two programs' spellings of the indicator. One program widens
  the comparison's bit to 32 bits without sign and reads the word as a signed integer; the other reads the bit as
  an unsigned integer. Both are the bit.
-/
import Idealize.ShloMosaic.PureOps.Ideal
import Idealize.ShloMosaic.Lib.ValueIdx

noncomputable section

namespace Cert.OneHot

open Idealize.ShloMosaic Idealize.ShloMosaic.ValueIdx

/-- The indicator that position `d` of the new axis is the index word `k`: the bit of the 32-bit comparison
    `d = k`, as the extended real `0` or `1`. -/
def hit (d : Nat) (k : BitVec 32) : EReal := (((IntOp.cmpi .eq (BitVec.ofNat 32 d) k).toNat : ℝ) : EReal)

/-- One entry of the result: the indicator of `d = ind n` times the gradient at `(b, n)`. -/
def entry (g : (⟨2, ![8, 4096]⟩ : Shape).Idx → EReal) (ind : (⟨1, ![4096]⟩ : Shape).Idx → BitVec 32)
    (b : Fin 8) (n : Fin 4096) (d : Fin 2048) : EReal :=
  hit d.val (ind (ix1 n)) * g (ix2 b n)

/-- The whole result, index by index. -/
def scatter (g : (⟨2, ![8, 4096]⟩ : Shape).Idx → EReal) (ind : (⟨1, ![4096]⟩ : Shape).Idx → BitVec 32) :
    (⟨3, ![8, 4096, 2048]⟩ : Shape).Idx → EReal :=
  fun j => entry g ind (j 0) (j 1) (j 2)

theorem scatter_ix3 (g : (⟨2, ![8, 4096]⟩ : Shape).Idx → EReal) (ind : (⟨1, ![4096]⟩ : Shape).Idx → BitVec 32)
    (b : Fin 8) (n : Fin 4096) (d : Fin 2048) : scatter g ind (ix3 b n d) = entry g ind b n d := rfl

/-- A bit widened to 32 bits without sign, read as a signed integer, is the bit read as a natural number. -/
theorem toInt_setWidth_bit (x : BitVec 1) : (x.setWidth 32).toInt = (x.toNat : Int) := by
  rcases BitVec.eq_zero_or_eq_one x with h | h <;> subst h <;> decide

/-- The same as extended reals: the signed reading of the widened bit is the unsigned reading of the bit. -/
theorem widened_bit (x : BitVec 1) : (((x.setWidth 32).toInt : ℝ) : EReal) = ((x.toNat : ℝ) : EReal) := by
  rw [toInt_setWidth_bit, Int.cast_natCast]

end Cert.OneHot

end
-- ==== Proof.Layout.lean ====
/-
  The layout operations of the scatter body, read at an index.

  The body builds its two factors by re-laying small vectors to the block's shape 8 × 512 × 512:
  the column numbers (a vector 1 × 1 × 512) and the row indices (512 words, viewed 1 × 512 × 1) are each
  repeated to 1 × 512 × 512 and compared there; the comparison is repeated along the leading axis of size 8; the
  gradient block (8 × 512, viewed 8 × 512 × 1) is repeated along the last axis. A repetition reads its operand at
  the same coordinates with `0` on the operand's axes of size one; a change of view reads the element at the same
  row-major position. Each lemma says this for one of the six operations, at explicit coordinates.
-/
import Idealize.ShloMosaic.Lib.Pipeline.Value
import Idealize.ShloMosaic.Lib.ValueIdx

noncomputable section

namespace Cert.Layout

open Idealize.ShloMosaic Idealize.ShloMosaic.ValueIdx

variable {α : Type}

/-- The column numbers repeated down the 512 rows: entry `(0, p, q)` is the number of column `q`. -/
theorem cols_rows (v : (⟨3, ![1, 1, 512]⟩ : Shape).Idx → α) (h : (⟨3, ![1, 1, 512]⟩ : Shape).Broadcasts ⟨3, ![1, 512, 512]⟩)
    (p q : Fin 512) : broadcastTo ⟨3, ![1, 512, 512]⟩ v h (ix3 (0 : Fin 1) p q) = v (ix3 (0 : Fin 1) (0 : Fin 1) q) :=
  broadcastTo_apply v h _ _ fun a => match a with | ⟨0, _⟩ => rfl | ⟨1, _⟩ => rfl | ⟨2, _⟩ => rfl

/-- The row indices repeated across the 512 columns: entry `(0, p, q)` is the index of row `p`. -/
theorem rows_cols (v : (⟨3, ![1, 512, 1]⟩ : Shape).Idx → α) (h : (⟨3, ![1, 512, 1]⟩ : Shape).Broadcasts ⟨3, ![1, 512, 512]⟩)
    (p q : Fin 512) : broadcastTo ⟨3, ![1, 512, 512]⟩ v h (ix3 (0 : Fin 1) p q) = v (ix3 (0 : Fin 1) p (0 : Fin 1)) :=
  broadcastTo_apply v h _ _ fun a => match a with | ⟨0, _⟩ => rfl | ⟨1, _⟩ => rfl | ⟨2, _⟩ => rfl

/-- A 1 × 512 × 512 vector repeated along the leading axis of size 8: entry `(b, p, q)` is its entry `(0, p, q)`. -/
theorem lead8 (v : (⟨3, ![1, 512, 512]⟩ : Shape).Idx → α) (h : (⟨3, ![1, 512, 512]⟩ : Shape).Broadcasts ⟨3, ![8, 512, 512]⟩)
    (b : Fin 8) (p q : Fin 512) : broadcastTo ⟨3, ![8, 512, 512]⟩ v h (ix3 b p q) = v (ix3 (0 : Fin 1) p q) :=
  broadcastTo_apply v h _ _ fun a => match a with | ⟨0, _⟩ => rfl | ⟨1, _⟩ => rfl | ⟨2, _⟩ => rfl

/-- An 8 × 512 × 1 vector repeated across the 512 columns: entry `(b, p, q)` is its entry `(b, p, 0)`. -/
theorem last512 (v : (⟨3, ![8, 512, 1]⟩ : Shape).Idx → α) (h : (⟨3, ![8, 512, 1]⟩ : Shape).Broadcasts ⟨3, ![8, 512, 512]⟩)
    (b : Fin 8) (p q : Fin 512) : broadcastTo ⟨3, ![8, 512, 512]⟩ v h (ix3 b p q) = v (ix3 b p (0 : Fin 1)) :=
  broadcastTo_apply v h _ _ fun a => match a with | ⟨0, _⟩ => rfl | ⟨1, _⟩ => rfl | ⟨2, _⟩ => rfl

/-- 512 words viewed 1 × 512 × 1: entry `(0, p, 0)` is word `p`. -/
theorem view_1p1 (v : (⟨1, ![512]⟩ : Shape).Idx → α) (h : (⟨1, ![512]⟩ : Shape).ShapeCasts ⟨3, ![1, 512, 1]⟩)
    (p : Fin 512) : shapeCast ⟨3, ![1, 512, 1]⟩ v h (ix3 (0 : Fin 1) p (0 : Fin 1)) = v (ix1 p) :=
  shapeCast_apply v h _ _ (by
    rw [Shape.rowMajor_val_one, Shape.rowMajor_val_three]
    show p.val = ((0 : Fin 1).val * 512 + p.val) * 1 + (0 : Fin 1).val
    simp)

/-- An 8 × 512 block viewed 8 × 512 × 1: entry `(b, p, 0)` is the block's entry `(b, p)`. -/
theorem view_bp1 (v : (⟨2, ![8, 512]⟩ : Shape).Idx → α) (h : (⟨2, ![8, 512]⟩ : Shape).ShapeCasts ⟨3, ![8, 512, 1]⟩)
    (b : Fin 8) (p : Fin 512) : shapeCast ⟨3, ![8, 512, 1]⟩ v h (ix3 b p (0 : Fin 1)) = v (ix2 b p) :=
  shapeCast_apply v h _ _ (by
    rw [Shape.rowMajor_val_two, Shape.rowMajor_val_three]
    show b.val * 512 + p.val = (b.val * 512 + p.val) * 1 + (0 : Fin 1).val
    simp)

end Cert.Layout

end
-- ==== Proof.KernelEntry.lean ====
/-
  One entry of what the kernel body stores.

  At the grid point with coordinates `i = (i₀, i₁)` the body holds 512 index words `x1` and an 8 × 512 block `x0` of
  the gradient, and stores an 8 × 512 × 512 block. Its column numbers are `i₁ · 512 + q` for `q = 0 … 511`, computed
  in 32-bit words; since `i₁ < 4` the sum stays below 2048 and the word is the word of that number. It compares
  each column number with each index word, widens the bit to 32 bits without sign, reads it as a signed number,
  and multiplies by the gradient entry of the same row. So entry `(b, p, q)` of the stored block is the indicator of
  "column `i₁ · 512 + q` is the index word `p`", times `x0 b p`: the widened bit read signed is the bit itself.
-/
import proofs.«175133_j53833120088407_1_alg».proof.Proof.Gen.KernelIdeal.Skeleton
import proofs.«175133_j53833120088407_1_alg».proof.Proof.OneHot
import proofs.«175133_j53833120088407_1_alg».proof.Proof.Layout

noncomputable section

namespace Cert.KernelIdeal.Entry

open Cert.KernelIdeal Cert.KernelIdeal.Gen Idealize.ShloMosaic Idealize.ShloMosaic.ValueIdx

/-- The block's column word: `c · 512 + q` computed in 32-bit words is the word of the number `c · 512 + q`
    (taking the word of a number commutes with sums and products). -/
theorem col_word (c q : Nat) :
    IntOp.addi (Scalar.muli (BitVec.ofNat 32 c) 512#32) (BitVec.ofNat 32 q) = BitVec.ofNat 32 (c * 512 + q) := by
  show BitVec.ofNat 32 c * BitVec.ofNat 32 512 + BitVec.ofNat 32 q = _
  rw [← BitVec.ofNat_mul, ← BitVec.ofNat_add]

/-- An integer comparison of two vectors, at an index. -/
theorem cmpi_at {s : Shape} {w : Nat} (p : CmpIPredicate) (x y : IVec s w) (j : s.Idx) :
    cmpi p x y j = IntOp.cmpi p (x j) (y j) := rfl

/-- An integer sum of two vectors, at an index. -/
theorem addi_at {s : Shape} {w : Nat} (x y : IVec s w) (j : s.Idx) : addi x y j = IntOp.addi (x j) (y j) := rfl

/-- Entry `(b, p, q)` of the block the body stores at the grid point `i`. -/
theorem pay_entry (i : grid0.Coords) (x1 : Vec Ideal S512 .i32) (x0 : Vec Ideal S8x512 .f32)
    (b : Fin 8) (p q : Fin 512) :
    k0_pay1 (F := Ideal) i x1 x0 (ix3 b p q)
      = Cert.OneHot.hit ((i 1).val * 512 + q.val) (x1 (ix1 p)) * x0 (ix2 b p) := by
  unfold k0_pay1
  simp only [mulf_apply, Cert.Layout.lead8, Cert.Layout.last512, Cert.Layout.view_bp1, sitofp_apply, extui_apply,
    cmpi_at, Cert.Layout.cols_rows, Cert.Layout.rows_cols, Cert.Layout.view_1p1, addi_at, broadcast_apply,
    iota_single_apply]
  -- the column numbering inside the block: position `(0, 0, q)` holds the word of `q`
  have hio : iota Kind.tc S1x1x512 32 [2] iota_S1x1x512_d2_w32 (ix3 (0 : Fin 1) (0 : Fin 1) q) = BitVec.ofNat 32 q.val :=
    iota_single_apply .tc S1x1x512 32 2 iota_S1x1x512_d2_w32 _
  rw [hio, col_word]
  -- the widened bit read signed is the bit read unsigned
  exact congrArg (fun z => z * x0 (ix2 b p)) (Cert.OneHot.widened_bit _)

end Cert.KernelIdeal.Entry

end
-- ==== Proof.KernelScatter.lean ====
/-
  The kernel's result array is the one-hot scatter.

  The grid has 8 × 4 points. The point with coordinates `(i₀, i₁)` reads rows `i₀ · 512 … i₀ · 512 + 511` of the
  gradient (all 8 leading entries) and of the index words, and writes back the 8 × 512 × 512 block of the result at
  block position `(0, i₀, i₁)`: rows `i₀ · 512 + p`, columns `i₁ · 512 + q`.

  * What a point writes back is that block of the scatter of the whole argument arrays: entry `(b, p, q)` of the
    stored block is the indicator of "column `i₁ · 512 + q` is index word `p` of the row block", times entry
    `(b, p)` of the gradient block; the row block's word `p` is word `i₀ · 512 + p` of the array, the gradient
    block's entry `(b, p)` is entry `(b, i₀ · 512 + p)`, and `(b, i₀ · 512 + p, i₁ · 512 + q)` is where the entry
    lands.
  * The 32 blocks cover the result: index `(b, n, d)` lies in the block of the point with `i₀ = n / 512`,
    `i₁ = d / 512`.
  Hence the result array after the run is the scatter everywhere, and the run is the frame run with its result named.
-/
import proofs.«175133_j53833120088407_1_alg».proof.Proof.KernelIdealFrame
import proofs.«175133_j53833120088407_1_alg».proof.Proof.KernelEntry
import Idealize.ShloMosaic.Lib.Pipeline.Value

noncomputable section

namespace Cert.KernelIdeal.Scatter

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The block positions at a grid point, decided over the 32 points: the gradient's and the index words' row block is
    the result's row block, the leading block position is `0`, and the result's column block is the point's second
    coordinate. -/
theorem block_positions : ∀ t : Fin cfg0.N,
    win0_0.index t (0 : Fin 2) = win0_2.index t (0 : Fin 3)
    ∧ win0_0.index t (1 : Fin 2) = win0_2.index t (1 : Fin 3)
    ∧ win0_1.index t (0 : Fin 1) = win0_2.index t (1 : Fin 3)
    ∧ win0_2.index t (2 : Fin 3) = (grid0.coords t 1).val :=
  (by decide +kernel : ∀ t : Fin grid0.N, _)

/-- Every block position `(0, r, s)` with `r < 8`, `s < 4` is some point's. -/
theorem block_onto : ∀ (r : Fin 8) (s : Fin 4), ∃ t : Fin cfg0.N, win0_2.index t = ![0, r.val, s.val] :=
  (by decide +kernel : ∀ (r : Fin 8) (s : Fin 4), ∃ t : Fin grid0.N, win0_2.index t = ![0, r.val, s.val])

/-- One entry of what point `t` stores, against the scatter of the whole arrays at the place the entry lands. -/
theorem stored_entry (c : Dev nD) (t : Fin cfg0.N) (y : S8x512x512.Idx) :
    k0_pay1 (F := Ideal) (grid0.coords t) (iblk m c 1 t) (iblk m c 0 t) y
      = Cert.OneHot.scatter (V m c main_arg0) (V m c main_arg1) (((cfg0.win 2).blk t).view.emb y) := by
  obtain ⟨b, p, q, rfl⟩ : ∃ (b : Fin 8) (p q : Fin 512), y = ix3 b p q := ⟨y 0, y 1, y 2, eq_ix3 y⟩
  obtain ⟨e0, e1, e2, e3⟩ := block_positions t
  refine (Cert.KernelIdeal.Entry.pay_entry (grid0.coords t) (iblk m c 1 t) (iblk m c 0 t) b p q).trans ?_
  show Cert.OneHot.hit ((grid0.coords t 1).val * 512 + q.val) (V m c main_arg1 (((cfg0.win 1).blk t).view.emb (ix1 p)))
        * V m c main_arg0 (((cfg0.win 0).blk t).view.emb (ix2 b p))
      = Cert.OneHot.hit ((((cfg0.win 2).blk t).view.emb (ix3 b p q)) 2).val
          (V m c main_arg1 (ix1 ((((cfg0.win 2).blk t).view.emb (ix3 b p q)) 1)))
        * V m c main_arg0 (ix2 ((((cfg0.win 2).blk t).view.emb (ix3 b p q)) 0) ((((cfg0.win 2).blk t).view.emb (ix3 b p q)) 1))
  -- the index word read: word `p` of the row block is the word of the row the entry lands on
  have hw : ((cfg0.win 1).blk t).view.emb (ix1 p) = ix1 ((((cfg0.win 2).blk t).view.emb (ix3 b p q)) 1) := by
    funext a; apply Fin.ext
    match a with
    | ⟨0, _⟩ => show win0_1.index t (0 : Fin 1) * 512 + 1 * p.val = win0_2.index t (1 : Fin 3) * 512 + 1 * p.val; omega
  -- the gradient entry read: entry `(b, p)` of the block is the entry of the row the result entry lands on
  have hg : ((cfg0.win 0).blk t).view.emb (ix2 b p)
      = ix2 ((((cfg0.win 2).blk t).view.emb (ix3 b p q)) 0) ((((cfg0.win 2).blk t).view.emb (ix3 b p q)) 1) := by
    funext a; apply Fin.ext
    match a with
    | ⟨0, _⟩ => show win0_0.index t (0 : Fin 2) * 8 + 1 * b.val = win0_2.index t (0 : Fin 3) * 8 + 1 * b.val; omega
    | ⟨1, _⟩ => show win0_0.index t (1 : Fin 2) * 512 + 1 * p.val = win0_2.index t (1 : Fin 3) * 512 + 1 * p.val; omega
  -- the column the entry lands on is the column number the body compared
  have hc : ((((cfg0.win 2).blk t).view.emb (ix3 b p q)) 2).val = (grid0.coords t 1).val * 512 + q.val := by
    show win0_2.index t (2 : Fin 3) * 512 + 1 * q.val = (grid0.coords t 1).val * 512 + q.val; omega
  rw [hw, hg, hc]
  rfl

/-- WHAT POINT `t` WRITES BACK is block `t` of the scatter of the argument arrays. -/
theorem flushed_eq (c : Dev nD) (t : Fin cfg0.N) :
    (dats m 0 c).flushed 2 t
      = ((cfg0.win 2).blk t).view.read (Elt Ideal) (Cert.OneHot.scatter (V m c main_arg0) (V m c main_arg1)) := by
  show (cfg0.win 2).cut (grid0.coords t) ((dats m 0 c).after 2 t) = _
  rw [after0_2]
  unfold out0_2
  rw [View.canon_unit_zero zeros3]
  simp only [View.ld_unit_zero (S := S512) zeros1, View.ld_unit_zero (S := S8x512) zeros2]
  funext j
  exact stored_entry m c t j

/-- An index of the result is in point `t`'s block iff each coordinate is in the block's range on its axis. -/
theorem mem_blk (t : Fin cfg0.N) (i : S8x4096x2048.Idx) :
    i ∈ ((cfg0.win 2).blk t).view.set ↔ ∀ a : Fin 3, win0_2.index t a * S8x512x512.size a ≤ (i a).val
      ∧ (i a).val < win0_2.index t a * S8x512x512.size a + S8x512x512.size a := by
  show i ∈ ((View.whole main_v0).slice (win0_2.rect t)).set ↔ _
  rw [View.set_slice_whole, Rect.mem_set_unit]
  exact Iff.rfl

/-- THE BLOCKS COVER THE RESULT: `(b, n, d)` is in the block of the point at block position `(0, n / 512, d / 512)`. -/
theorem cover (i : S8x4096x2048.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 2048 := (i 2).isLt
  obtain ⟨t, ht⟩ := block_onto ⟨(i 1).val / 512, by omega⟩ ⟨(i 2).val / 512, by omega⟩
  have q0 : win0_2.index t (0 : Fin 3) = 0 := congrFun ht 0
  have q1 : win0_2.index t (1 : Fin 3) = (i 1).val / 512 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- THE RESULT ARRAY after the run is the scatter of the argument arrays as launched. -/
theorem final (c : Dev nD) :
    (dats m 0 c).arrAt 2 cfg0.N
      = Cert.OneHot.scatter (m ((c : Thread nD τ).loc main_arg0)) (m ((c : Thread nD τ).loc main_arg1)) :=
  (dats m 0 c).arrAt_eq_of_cover 2 (Cert.OneHot.scatter (V m c main_arg0) (V m c main_arg1))
    (fun t _ => flushed_eq m c t) cover

/-- The frame run with its result named: the result array ends at the scatter of the arguments, which end unchanged. -/
theorem run : θ_run defs (onTc (τ := τ) (main (F := Ideal))) ⟨m, fun _ => 0, ρ⟩ fun r => ∀ c : Dev nD,
      r.2.mem ((c : Thread nD τ).loc main_v0)
        = Cert.OneHot.scatter (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Scatter

end
-- ==== Proof.RefScatter.lean ====
/-
  The reference computes the one-hot scatter.

  The reference lays the column numbers 0 … 2047 along the last axis and the index words along the middle axis of a
  1 × 4096 × 2048 array, compares them, reads the comparison's bit as an unsigned number, repeats it along the
  leading axis of size 8, and multiplies by the gradient repeated along the last axis. Read at `(b, n, d)` through
  the generated stage lemmas, every repetition lands on the coordinates it keeps: the column number read is `d`,
  the index word read is word `n`, the gradient read is entry `(b, n)`. What is left is, on the nose, the
  specification's entry: the unsigned reading of the bit of `d = ind n`, times `g b n`.
-/
import proofs.«175133_j53833120088407_1_alg».proof.Proof.Gen.ReferenceIdeal.Read
import proofs.«175133_j53833120088407_1_alg».proof.Proof.OneHot

noncomputable section

namespace Cert.ReferenceIdeal.RefScatter

open Cert.ReferenceIdeal Cert.ReferenceIdeal.Read Idealize.ShloMosaic Idealize.ShloMosaic.ValueIdx

/-- The reference's result at `(b, n, d)` is the specification's entry there. -/
theorem entry_eq (x0 : (⟨S8x4096, .f32⟩ : BufTy).Contents (Elt Ideal)) (x1 : (⟨S4096, .i32⟩ : BufTy).Contents (Elt Ideal))
    (b : Fin 8) (n : Fin 4096) (d : Fin 2048) :
    val_main_v11 (F := Ideal) x0 x1 (ix3 b n d) = Cert.OneHot.entry x0 x1 b n d := by
  -- the gradient entry the product reads: the leading two coordinates are kept
  have eg : idx_main_v1 (idx_main_v10 (ix3 b n d)) = ix2 b n :=
    funext fun a => match a with | ⟨0, _⟩ => rfl | ⟨1, _⟩ => rfl
  -- the index word the comparison reads: the middle coordinate is kept
  have ei : idx_main_v0 (idx_main_v2 (idx_main_v6 (idx_main_v9 (ix3 b n d)))) = ix1 n :=
    funext fun a => match a with | ⟨0, _⟩ => rfl
  -- the column number the comparison reads: the last coordinate, at row-major position (0·1 + 0)·2048 + d
  have ed : ((idx_main_v4 (idx_main_v5 (idx_main_v9 (ix3 b n d)))) 0).val = d.val := by
    show ((0 : Nat) * 1 + 0) * 2048 + d.val = d.val
    omega
  rw [val_main_v11_apply, val_main_v9_apply, val_main_v8_apply, val_main_v7_apply, val_main_v5_apply,
    val_main_v4_apply, val_main_v3_apply, val_main_v6_apply, val_main_v2_apply, val_main_v0_apply,
    val_main_v10_apply, val_main_v1_apply, eg, ei, ed]
  rfl

/-- The reference's whole result is the scatter of its two arguments. -/
theorem result_eq (x0 : (⟨S8x4096, .f32⟩ : BufTy).Contents (Elt Ideal)) (x1 : (⟨S4096, .i32⟩ : BufTy).Contents (Elt Ideal)) :
    val_main_v11 (F := Ideal) x0 x1 = Cert.OneHot.scatter x0 x1 := by
  funext j
  obtain ⟨b, n, d, rfl⟩ : ∃ (b : Fin 8) (n : Fin 4096) (d : Fin 2048), j = ix3 b n d := ⟨j 0, j 1, j 2, eq_ix3 j⟩
  exact entry_eq x0 x1 b n d

end Cert.ReferenceIdeal.RefScatter

end
-- ==== Proof.lean ====
/-
  A gradient scattered one-hot along a new axis: the tiled kernel against the whole-array reference.

  Inputs: a gradient `g` of shape 8 × 4096 (finite floats) and 4096 index words. Result, of shape
  8 × 4096 × 2048: at `(b, n, d)` the value `g b n` if the 32-bit word of `d` equals index word `n`, and zero
  otherwise — the product `[d = ind n] · g b n` of a 0/1 indicator with the gradient entry (Proof/OneHot.lean).

  The reference builds the indicator over the whole 1 × 4096 × 2048 array from the column numbers 0 … 2047 and
  multiplies; read at an index it is that product as it stands (Proof/RefScatter.lean). The kernel computes the same
  product tile by tile: the point `(i₀, i₁)` of an 8 × 4 grid numbers its 512 columns `i₁ · 512 + q`, compares them
  with the 512 index words of row block `i₀`, and writes the 8 × 512 × 512 block at rows `i₀ · 512 + p`, columns
  `i₁ · 512 + q` (Proof/KernelEntry.lean: one stored entry; Proof/KernelScatter.lean: a point's block is a block of
  the scatter, and the 32 blocks cover the result). Both programs multiply the indicator, on the left, by the
  gradient entry, so the two results are the same extended real entry by entry and no law of arithmetic — hence no
  finiteness of the inputs — is needed: the only fact used about numbers is that a comparison's bit, widened to 32
  bits without sign and read signed, is the bit read unsigned.

  The three frames: the two kernels' from the frame certificates (Proof/KernelFrame.lean, Proof/KernelIdealFrame.lean),
  the reference's from its run with the result dropped. The idealization rewrote no operation, so `preserves` asks
  nothing.
-/
import proofs.«175133_j53833120088407_1_alg».proof.Defs
import proofs.«175133_j53833120088407_1_alg».proof.Proof.Gen.Kernel
import proofs.«175133_j53833120088407_1_alg».proof.Proof.Gen.KernelIdeal
import proofs.«175133_j53833120088407_1_alg».proof.Proof.Gen.ReferenceIdeal
import proofs.«175133_j53833120088407_1_alg».proof.Proof.Gen.ReferenceIdeal.Run
import proofs.«175133_j53833120088407_1_alg».proof.Proof.Gen.ReferenceIdeal.Read
import proofs.«175133_j53833120088407_1_alg».proof.Proof.Gen.Pre_finite_inputs
import proofs.«175133_j53833120088407_1_alg».proof.Proof.KernelFrame
import proofs.«175133_j53833120088407_1_alg».proof.Proof.KernelIdealFrame
import proofs.«175133_j53833120088407_1_alg».proof.Proof.KernelScatter
import proofs.«175133_j53833120088407_1_alg».proof.Proof.RefScatter
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.GenP.frame m ρ

/-- So does the kernel read over the extended reals. -/
theorem frame_kernel_ideal : Cert.frame_KernelIdeal := fun m ρ _ => Cert.KernelIdeal.GenP.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the gradient and the index words, both programs end with the scatter of those two
    arrays in their result: the kernel block by block, the reference in one piece. -/
theorem algebraic : Cert.algebraic_KernelIdeal_ReferenceIdeal := by
  intro m ρ m' ρ' _ hagree
  refine ⟨fun c => Cert.OneHot.scatter (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scatter.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefScatter.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
